-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x64 : Shape := ⟨2, ![32768, 64]⟩
abbrev S2048x64 : Shape := ⟨2, ![2048, 64]⟩
abbrev S2048 : Shape := ⟨1, ![2048]⟩
abbrev S2x2048 : Shape := ⟨2, ![2, 2048]⟩
abbrev S2 : Shape := ⟨1, ![2]⟩
abbrev S_ : Shape := ⟨0, ![]⟩

class Facts : Prop where
  bcast_S_S32768x64 : S_.BroadcastsInDim S32768x64 (![] : Fin 0 → Fin S32768x64.rank)
  reducesTo_S32768x64_S_d0_1 : S32768x64.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S2048 : S_.BroadcastsInDim S2048 (![] : Fin 0 → Fin S2048.rank)
  reducesTo_S2048_S_d0 : S2048.ReducesTo [0] S_
  bcast_S_S2x2048 : S_.BroadcastsInDim S2x2048 (![] : Fin 0 → Fin S2x2048.rank)
  reducesTo_S2x2048_S_d0_1 : S2x2048.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S2x2048 1) : IVec S_ 1 :=
  let main_c_5 : IVec S_ 1 := constantI S_ 1 1#1
  let main_v17 : IVec S_ 1 := (fun x v => Host.reduce IntOp.andi x v reducesTo_S2x2048_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S32768x64 .f32) (main_arg1 : FVec F S2048x64 .f32) (main_arg2 : FVec F S2048 .f32) (main_arg3 : FVec F S2x2048 .f32) (main_arg4 : FVec F S2 .f32) : IVec S_ 1 :=
  let main_v0 : FVec F S32768x64 .f32 := Host.absf main_arg0
  let main_cst : FVec F S_ .f32 := constant S_ .f32 0x7F800000#32
  let main_v1 : FVec F S32768x64 .f32 := broadcastInDim S32768x64 ![] bcast_S_S32768x64 main_cst
  let main_v2 : IVec S32768x64 1 := cmpf .olt main_v0 main_v1
  let main_c : IVec S_ 1 := constantI S_ 1 1#1
  let main_v3 : IVec S_ 1 := (fun x v => Host.reduce IntOp.andi x v reducesTo_S32768x64_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2x2048 .f32 := Host.absf main_arg3
  let main_cst_4 : FVec F S_ .f32 := constant S_ .f32 0x7F800000#32
  let main_v15 : FVec F S2x2048 .f32 := broadcastInDim S2x2048 ![] bcast_S_S2x2048 main_cst_4
  let main_v16 : IVec S2x2048 1 := cmpf .olt main_v14 main_v15
  fn_part1 (F := F) main_arg4 main_v13 main_v16
-- ==== Kernel.lean ====
abbrev S32768x64 : Shape := ⟨2, ![32768, 64]⟩
abbrev S2048x64 : Shape := ⟨2, ![2048, 64]⟩
abbrev S2048 : Shape := ⟨1, ![2048]⟩
abbrev S2x2048 : Shape := ⟨2, ![2, 2048]⟩
abbrev S2 : Shape := ⟨1, ![2]⟩
abbrev S_ : Shape := ⟨0, ![]⟩
abbrev S1x2048 : Shape := ⟨2, ![1, 2048]⟩
abbrev S1x2 : Shape := ⟨2, ![1, 2]⟩
abbrev S32768x2 : Shape := ⟨2, ![32768, 2]⟩
abbrev S1024x64 : Shape := ⟨2, ![1024, 64]⟩
abbrev S1024x2 : Shape := ⟨2, ![1024, 2]⟩
abbrev S1024 : Shape := ⟨1, ![1024]⟩
abbrev S1024x1 : Shape := ⟨2, ![1024, 1]⟩
abbrev S64x2048 : Shape := ⟨2, ![64, 2048]⟩
abbrev S1024x2048 : Shape := ⟨2, ![1024, 2048]⟩
abbrev S2048x2 : Shape := ⟨2, ![2048, 2]⟩

abbrev nBuf : Space → Nat
  | .hbm => 13
  | .vmem => 9
  | .smem => 0
  | _ => 0

abbrev bufTy : (tb : Table) → Fin (tcTables nBuf tb) → BufTy
  | .hbm, ⟨0, _⟩ => ⟨S32768x64, .f32⟩
  | .hbm, ⟨1, _⟩ => ⟨S2048x64, .f32⟩
  | .hbm, ⟨2, _⟩ => ⟨S2048, .f32⟩
  | .hbm, ⟨3, _⟩ => ⟨S2x2048, .f32⟩
  | .hbm, ⟨4, _⟩ => ⟨S2, .f32⟩
  | .hbm, ⟨5, _⟩ => ⟨S2048x64, .f32⟩
  | .hbm, ⟨6, _⟩ => ⟨S_, .f32⟩
  | .hbm, ⟨7, _⟩ => ⟨S2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S1x2, .f32⟩
  | .hbm, ⟨12, _⟩ => ⟨S32768x2, .f32⟩
  | .local _ .vmem, ⟨0, _⟩ => ⟨S1024x64, .f32⟩
  | .local _ .vmem, ⟨1, _⟩ => ⟨S1024x64, .f32⟩
  | .local _ .vmem, ⟨2, _⟩ => ⟨S2048x64, .f32⟩
  | .local _ .vmem, ⟨3, _⟩ => ⟨S1x2048, .f32⟩
  | .local _ .vmem, ⟨4, _⟩ => ⟨S1x2048, .f32⟩
  | .local _ .vmem, ⟨5, _⟩ => ⟨S2x2048, .f32⟩
  | .local _ .vmem, ⟨6, _⟩ => ⟨S1x2, .f32⟩
  | .local _ .vmem, ⟨7, _⟩ => ⟨S1024x2, .f32⟩
  | .local _ .vmem, ⟨8, _⟩ => ⟨S1024x2, .f32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S2048x64_S2048_d1 : S2048x64.ReducesTo [1] S2048
  h_S_ : 0 < S_.numel
  shapeCasts_S2048_S1x2048 : S2048.ShapeCasts S1x2048
  shapeCasts_S2_S1x2 : S2.ShapeCasts S1x2
  inb_S1024x64_S1024x64_0_0 : ∀ a, (![0, 0] : Fin 2 → Nat) a + S1024x64.size a ≤ S1024x64.size a
  h_S1024x64 : 0 < S1024x64.numel
  inb_S2048x64_S2048x64_0_0 : ∀ a, (![0, 0] : Fin 2 → Nat) a + S2048x64.size a ≤ S2048x64.size a
  h_S2048x64 : 0 < S2048x64.numel
  reduces_S1024x64_S1024 : S1024x64.Reduces [1] S1024
  shapeCasts_S1024_S1024x1 : S1024.ShapeCasts S1024x1
  bitsLt_bf16_f32 : FTy.bits .bf16 < FTy.bits .f32
  transposes_S2048x64_p1_0_S64x2048 : S2048x64.Transposes [1, 0] S64x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  inb_S2x2048_S2x2048_0_0 : ∀ a, (![0, 0] : Fin 2 → Nat) a + S2x2048.size a ≤ S2x2048.size a
  h_S2x2048 : 0 < S2x2048.numel
  transposes_S2x2048_p1_0_S2048x2 : S2x2048.Transposes [1, 0] S2048x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  inb_S1024x2_S1024x2_0_0 : ∀ a, (![0, 0] : Fin 2 → Nat) a + S1024x2.size a ≤ S1024x2.size a
  h_S1024x2 : 0 < S1024x2.numel
  dot_S1024x64_S64x2048_S1024x2048_1_0_0_1_n_n_wf : DotDims.WF S1024x64 S64x2048 S1024x2048 [1] [0] [0] [1] [] []
  dot_S1024x2048_S2048x2_S1024x2_1_0_0_1_n_n_wf : DotDims.WF S1024x2048 S2048x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S32768x64.size a
  hwx0_0 : ∀ i : grid0.Coords, EltTy.bits .f32 = 32 ∨ (Rect.block (s := S32768x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S2048x64.size a
  hwx0_1 : ∀ i : grid0.Coords, EltTy.bits .f32 = 32 ∨ (Rect.block (s := S2048x64) S2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x2048.size a ≤ S2x2048.size a
  hwx0_4 : ∀ i : grid0.Coords, EltTy.bits .f32 = 32 ∨ (Rect.block (s := S2x2048) S2x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2.size a ≤ S1x2.size a
  hwx0_5 : ∀ i : grid0.Coords, EltTy.bits .f32 = 32 ∨ (Rect.block (s := S1x2) S1x2.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x2.size a ≤ S32768x2.size a
  hwx0_6 : ∀ i : grid0.Coords, EltTy.bits .f32 = 32 ∨ (Rect.block (s := S32768x2) S1024x2.size (cc0_transform_6 i) (hinb0_6 i)).WholeWords (EltTy.packing .f32)

variable [Facts₀]

def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf
def dot_S1024x2048_S2048x2_S1024x2_1_0_0_1_n_n : DotDims S1024x2048 S2048x2 S1024x2 where
  lhsContracting := [1]
  rhsContracting := [0]
  lhsNonContracting := [0]
  rhsNonContracting := [1]
  lhsBatch := []
  rhsBatch := []
  wf := dot_S1024x2048_S2048x2_S1024x2_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S2x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x2.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x64 : Shape := ⟨2, ![32768, 64]⟩
abbrev S2048x64 : Shape := ⟨2, ![2048, 64]⟩
abbrev S2048 : Shape := ⟨1, ![2048]⟩
abbrev S2x2048 : Shape := ⟨2, ![2, 2048]⟩
abbrev S2 : Shape := ⟨1, ![2]⟩
abbrev S_ : Shape := ⟨0, ![]⟩
abbrev S32768 : Shape := ⟨1, ![32768]⟩
abbrev S32768x1 : Shape := ⟨2, ![32768, 1]⟩
abbrev S32768x2048 : Shape := ⟨2, ![32768, 2048]⟩
abbrev S1x2048 : Shape := ⟨2, ![1, 2048]⟩
abbrev S2048x2 : Shape := ⟨2, ![2048, 2]⟩
abbrev S32768x2 : Shape := ⟨2, ![32768, 2]⟩
abbrev S1x2 : Shape := ⟨2, ![1, 2]⟩

abbrev nBuf : Space → Nat
  | .hbm => 35
  | .vmem => 0
  | .smem => 0
  | _ => 0

abbrev bufTy : (tb : Table) → Fin (tcTables nBuf tb) → BufTy
  | .hbm, ⟨0, _⟩ => ⟨S32768x64, .f32⟩
  | .hbm, ⟨1, _⟩ => ⟨S2048x64, .f32⟩
  | .hbm, ⟨2, _⟩ => ⟨S2048, .f32⟩
  | .hbm, ⟨3, _⟩ => ⟨S2x2048, .f32⟩
  | .hbm, ⟨4, _⟩ => ⟨S2, .f32⟩
  | .hbm, ⟨5, _⟩ => ⟨S32768x64, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S2048x64, .f32⟩
  | .hbm, ⟨10, _⟩ => ⟨S_, .f32⟩
  | .hbm, ⟨11, _⟩ => ⟨S2048, .f32⟩
  | .hbm, ⟨12, _⟩ => ⟨S32768x2048, .f32⟩
  | .hbm, ⟨13, _⟩ => ⟨S1x2048, .f32⟩
  | .hbm, ⟨14, _⟩ => ⟨S32768x2048, .f32⟩
  | .hbm, ⟨15, _⟩ => ⟨S32768x2048, .f32⟩
  | .hbm, ⟨16, _⟩ => ⟨S32768x2048, .f32⟩
  | .hbm, ⟨17, _⟩ => ⟨S_, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S_, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S2048, .f32⟩
  | .hbm, ⟨26, _⟩ => ⟨S1x2048, .f32⟩
  | .hbm, ⟨27, _⟩ => ⟨S32768x2048, .f32⟩
  | .hbm, ⟨28, _⟩ => ⟨S32768x2048, .f32⟩
  | .hbm, ⟨29, _⟩ => ⟨S32768x2048, .f32⟩
  | .hbm, ⟨30, _⟩ => ⟨S2048x2, .f32⟩
  | .hbm, ⟨31, _⟩ => ⟨S32768x2, .f32⟩
  | .hbm, ⟨32, _⟩ => ⟨S1x2, .f32⟩
  | .hbm, ⟨33, _⟩ => ⟨S32768x2, .f32⟩
  | .hbm, ⟨34, _⟩ => ⟨S32768x2, .f32⟩
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  reducesTo_S32768x64_S32768_d1 : S32768x64.ReducesTo [1] S32768
  h_S_ : 0 < S_.numel
  bcast_S32768_S32768x1_0 : S32768.BroadcastsInDim S32768x1 (![0] : Fin 1 → Fin S32768x1.rank)
  reducesTo_S2048x64_S2048_d1 : S2048x64.ReducesTo [1] S2048
  bcast_S2048_S1x2048_1 : S2048.BroadcastsInDim S1x2048 (![1] : Fin 1 → Fin S1x2048.rank)
  bcast_S32768x1_S32768x2048_0_1 : S32768x1.BroadcastsInDim S32768x2048 (![0, 1] : Fin 2 → Fin S32768x2048.rank)
  bcast_S1x2048_S32768x2048_0_1 : S1x2048.BroadcastsInDim S32768x2048 (![0, 1] : Fin 2 → Fin S32768x2048.rank)
  bcast_S_S32768x2048 : S_.BroadcastsInDim S32768x2048 (![] : Fin 0 → Fin S32768x2048.rank)
  transposes_S2x2048_S2048x2_1_0 : S2x2048.Transposes [1, 0] S2048x2
  bcast_S2_S1x2_1 : S2.BroadcastsInDim S1x2 (![1] : Fin 1 → Fin S1x2.rank)
  bcast_S1x2_S32768x2_0_1 : S1x2.BroadcastsInDim S32768x2 (![0, 1] : Fin 2 → Fin S32768x2.rank)
  dot_S32768x64_S2048x64_S32768x2048_1_1_0_0_n_n_wf : DotDims.WF S32768x64 S2048x64 S32768x2048 [1] [1] [0] [0] [] []
  dot_S32768x2048_S2048x2_S32768x2_1_0_0_1_n_n_wf : DotDims.WF S32768x2048 S2048x2 S32768x2 [1] [0] [0] [1] [] []

variable [Facts₀]

def dot_S32768x64_S2048x64_S32768x2048_1_1_0_0_n_n : DotDims S32768x64 S2048x64 S32768x2048 where
  lhsContracting := [1]
  rhsContracting := [1]
  lhsNonContracting := [0]
  rhsNonContracting := [0]
  lhsBatch := []
  rhsBatch := []
  wf := dot_S32768x64_S2048x64_S32768x2048_1_1_0_0_n_n_wf
def dot_S32768x2048_S2048x2_S32768x2_1_0_0_1_n_n : DotDims S32768x2048 S2048x2 S32768x2 where
  lhsContracting := [1]
  rhsContracting := [0]
  lhsNonContracting := [0]
  rhsNonContracting := [1]
  lhsBatch := []
  rhsBatch := []
  wf := dot_S32768x2048_S2048x2_S32768x2_1_0_0_1_n_n_wf

class Facts : Prop extends Facts₀ where

variable [Facts]
-- ==== Proof.RbfSpec.lean ====
/-
  The radial-basis head, as one function of the argument arrays over the extended reals.

  For a row `p` of `x` and a centre `h`, the squared distance is taken in its expanded form
  `‖x_p‖² + ‖c_h‖² − 2·⟨x_p, c_h⟩`, clamped below at zero; the response is `exp(−dist² · γ_h²)`; and output column `j` is the
  responses' sum against row `j` of `W`, plus `b_j`. Everything is stated for an array of `R` rows, so that the same
  formula reads a block of rows and the whole array: a row's value uses no other row of `x` (`head_congr_row`).
-/
import Idealize.ShloMosaic.PureOps.Ideal
import Idealize.ShloMosaic.Lib.ValueIdx

noncomputable section

namespace Cert.Rbf

open Idealize.ShloMosaic Idealize.ShloMosaic.ValueIdx

variable {R : Nat}

/-- `‖x_p‖²`: the sum of the squares of row `p`. -/
def rowSq (x : FVec Ideal ⟨2, ![R, 64]⟩ .f32) (p : Fin R) : EReal :=
  ∑ d : Fin 64, x (ix2 p d) * x (ix2 p d)

/-- `⟨x_p, c_h⟩`: row `p` of `x` against centre `h`. -/
def cross (x : FVec Ideal ⟨2, ![R, 64]⟩ .f32) (c : FVec Ideal ⟨2, ![2048, 64]⟩ .f32) (p : Fin R) (h : Fin 2048) : EReal :=
  ∑ d : Fin 64, x (ix2 p d) * c (ix2 h d)

/-- The clamped squared distance from row `p` to centre `h`, given the centres' squared norms `csq`. The factor `2` and
    the clamp's `0` are kept as the float words both programs write. -/
def sqDist (x : FVec Ideal ⟨2, ![R, 64]⟩ .f32) (c : FVec Ideal ⟨2, ![2048, 64]⟩ .f32) (csq : Fin 2048 → EReal)
    (p : Fin R) (h : Fin 2048) : EReal :=
  max ((rowSq x p + csq h) - Ideal.ofBits .f32 0x40000000#32 * cross x c p h) (Ideal.ofBits .f32 0x00000000#32)

/-- The response of row `p` to centre `h`: `exp(−dist² · g2_h)`, `g2` the squared widths. -/
def kern (x : FVec Ideal ⟨2, ![R, 64]⟩ .f32) (c : FVec Ideal ⟨2, ![2048, 64]⟩ .f32) (csq g2 : Fin 2048 → EReal)
    (p : Fin R) (h : Fin 2048) : EReal :=
  Ideal.exp (-(sqDist x c csq p h) * g2 h)

/-- Output `(p, j)`: the responses of row `p` summed against row `j` of `W`, plus the bias. -/
def head (x : FVec Ideal ⟨2, ![R, 64]⟩ .f32) (c : FVec Ideal ⟨2, ![2048, 64]⟩ .f32) (csq g2 : Fin 2048 → EReal)
    (W : FVec Ideal ⟨2, ![2, 2048]⟩ .f32) (bias : Fin 2 → EReal) (p : Fin R) (j : Fin 2) : EReal :=
  (∑ h : Fin 2048, kern x c csq g2 p h * W (ix2 j h)) + bias j

/-- `‖c_h‖²`. -/
def centerSq (c : FVec Ideal ⟨2, ![2048, 64]⟩ .f32) (h : Fin 2048) : EReal :=
  ∑ d : Fin 64, c (ix2 h d) * c (ix2 h d)

/-- The whole result: `[32768, 2]` outputs from `x`, the centres, the widths `g`, `W` and `b`. -/
def G (x : FVec Ideal ⟨2, ![32768, 64]⟩ .f32) (c : FVec Ideal ⟨2, ![2048, 64]⟩ .f32) (g : FVec Ideal ⟨1, ![2048]⟩ .f32)
    (W : FVec Ideal ⟨2, ![2, 2048]⟩ .f32) (b : FVec Ideal ⟨1, ![2]⟩ .f32) : FVec Ideal ⟨2, ![32768, 2]⟩ .f32 :=
  fun i => head x c (centerSq c) (fun h => g (ix1 h) * g (ix1 h)) W (fun j => b (ix1 j)) (i 0) (i 1)

theorem G_apply (x : FVec Ideal ⟨2, ![32768, 64]⟩ .f32) (c : FVec Ideal ⟨2, ![2048, 64]⟩ .f32) (g : FVec Ideal ⟨1, ![2048]⟩ .f32)
    (W : FVec Ideal ⟨2, ![2, 2048]⟩ .f32) (b : FVec Ideal ⟨1, ![2]⟩ .f32) (n : Fin 32768) (j : Fin 2) :
    G x c g W b (ix2 n j) = head x c (centerSq c) (fun h => g (ix1 h) * g (ix1 h)) W (fun j => b (ix1 j)) n j := rfl

/-- A row's outputs read only that row of `x`: two arrays (of any row counts) that agree on a row give it the same outputs. -/
theorem head_congr_row {R' : Nat} (x : FVec Ideal ⟨2, ![R, 64]⟩ .f32) (x' : FVec Ideal ⟨2, ![R', 64]⟩ .f32)
    (c : FVec Ideal ⟨2, ![2048, 64]⟩ .f32) (csq g2 : Fin 2048 → EReal) (W : FVec Ideal ⟨2, ![2, 2048]⟩ .f32) (bias : Fin 2 → EReal)
    (p : Fin R) (p' : Fin R') (hrow : ∀ d : Fin 64, x (ix2 p d) = x' (ix2 p' d)) (j : Fin 2) :
    head x c csq g2 W bias p j = head x' c csq g2 W bias p' j := by
  unfold head kern sqDist rowSq cross
  simp only [hrow]

/-- The outputs depend on the squared norms, the squared widths and the bias only through their values. -/
theorem head_congr_params (x : FVec Ideal ⟨2, ![R, 64]⟩ .f32) (c : FVec Ideal ⟨2, ![2048, 64]⟩ .f32)
    (csq csq' g2 g2' : Fin 2048 → EReal) (W : FVec Ideal ⟨2, ![2, 2048]⟩ .f32) (bias bias' : Fin 2 → EReal)
    (h1 : ∀ h, csq h = csq' h) (h2 : ∀ h, g2 h = g2' h) (h3 : ∀ j, bias j = bias' j) (p : Fin R) (j : Fin 2) :
    head x c csq g2 W bias p j = head x c csq' g2' W bias' p j := by
  rw [show csq = csq' from funext h1, show g2 = g2' from funext h2, show bias = bias' from funext h3]

end Cert.Rbf

end
-- ==== Proof.LibPlainDot.lean ====
/-
  A plain matrix product read at an index, at the ideal instance.

  For the dimension numbers of an `M × K` by `K × N` product (contract the left operand's second axis with the right
  operand's first), a kernel's matrix product into a zero accumulator and the host's `dot_general` are both, at the output
  index `(r, c)`, the sum over `k : Fin K` of `lhs (r, k) * rhs (k, c)`.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The contraction shape of a plain product has one axis, of extent `K`. -/
theorem plain_contr_rank : (DotDims.plain M K N).contr.rank = 1 := rfl
theorem plain_contr_size : (DotDims.plain M K N).contr.size ⟨0, by rw [plain_contr_rank]; exact Nat.one_pos⟩ = K := rfl

/-- The operand indices of a plain product at the output index `j` and the contraction coordinate `k`. -/
theorem plain_lhsIdx (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single rfl j _).trans hk

theorem plain_rhsIdx (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ => rfl

/-- A kernel's plain product into the zero accumulator, at an index. -/
theorem plain_matmul_apply (prec : Option ContractPrecision) (lhs : FVec Ideal ⟨2, ![M, K]⟩ φ₁) (rhs : FVec Ideal ⟨2, ![K, N]⟩ φ₂)
    (j : (⟨2, ![M, N]⟩ : Shape).Idx) :
    FloatOps.matmul (DotDims.plain M K N) prec lhs rhs (constant ⟨2, ![M, N]⟩ .f32 0x00000000#32) j
      = ∑ k : Fin K, lhs (ix2 (j 0) k) * rhs (ix2 k (j 1)) := by
  rw [Ideal.matmul_constant_zero_apply, ← Equiv.sum_comp (contrEquiv1 (DotDims.plain M K N) K rfl rfl).symm]
  exact Finset.sum_congr rfl fun k _ => by rw [plain_lhsIdx, plain_rhsIdx]; rfl

/-- The host's plain product, at an index. -/
theorem plain_dotGeneral_apply (prec : Option ContractPrecision) (sched : HostSchedule) (lhs : FVec Ideal ⟨2, ![M, K]⟩ φ₁)
    (rhs : FVec Ideal ⟨2, ![K, N]⟩ φ₂) (j : (⟨2, ![M, N]⟩ : Shape).Idx) :
    FloatOps.dotGeneral (DotDims.plain M K N) prec sched lhs rhs j
      = ∑ k : Fin K, lhs (ix2 (j 0) k) * rhs (ix2 k (j 1)) := by
  rw [Ideal.dotGeneral_apply, ← Equiv.sum_comp (contrEquiv1 (DotDims.plain M K N) K rfl rfl).symm]
  exact Finset.sum_congr rfl fun k _ => by rw [plain_lhsIdx, plain_rhsIdx]; rfl

end Cert.LibPlainDot

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.LibColumnCast.lean ====
/-
  A vector kept as a column, read at an index given by coordinates: an [a] array cast to [a, 1] reads, at (r, u), the
  entry r, whatever the unit coordinate u. (The keepdims form of a per-row reduction's result; the row counterpart
  [a] → [1, a] is the library's, and this is stated in the same style.)
-/
import Idealize.ShloMosaic.Lib.Pipeline.Value
import Idealize.ShloMosaic.Lib.ValueIdx

namespace Cert.ColumnCast

open Idealize.ShloMosaic Idealize.ShloMosaic.ValueIdx

variable {α : Type}

/-- An `[a]` array cast to `[a, 1]` reads, at `(r, u)`, the operand at `r`: the two indices have the same row-major
    position, `r · 1 + 0`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end Cert.ColumnCast
-- ==== Proof.RbfPayload.lean ====
/-
  What the kernel body computes for one block of 1024 rows, read at an output index `(p, j)`.

  The body's arithmetic is one term over its six loads: the row block `x`, the centres `c`, the centres' squared norms and
  the squared widths as `[1, 2048]` rows, `W`, and the bias as a `[1, 2]` row. Read at `(p, j)` it is the head formula
  of the specification on that block: the lane sum of `x·x` is `‖x_p‖²`, the product of `x` with the transposed centres is
  `⟨x_p, c_h⟩`, the roundings to bf16 before each product are the identity on extended reals, `0 − s` is `−s`, and the
  second product sums the responses against `W`'s row `j`.
-/
import proofs.«149068_j55911884259445_1_alg».proof.Proof.Gen.KernelIdeal.Skeleton
import proofs.«149068_j55911884259445_1_alg».proof.Proof.RbfSpec
import proofs.«149068_j55911884259445_1_alg».proof.Proof.LibPlainDot
import proofs.«149068_j55911884259445_1_alg».proof.Proof.LibColumnBroadcast
import proofs.«149068_j55911884259445_1_alg».proof.Proof.LibColumnCast
import Idealize.ShloMosaic.Lib.ValueLayout
import Idealize.ShloMosaic.Lib.Pipeline.Value
import Idealize.ShloMosaic.PureOps.Ideal.Laws

noncomputable section

namespace Cert.Rbf.Payload

open Idealize.ShloMosaic Idealize.ShloMosaic.ValueIdx Cert.KernelIdeal Cert.KernelIdeal.Gen

/-- The lane sum of the squares of a block's rows, kept as a column and spread over the 2048 lanes, is `‖x_p‖²` at `(p, h)`. -/
theorem rowSq_stage (x : FVec Ideal ⟨2, ![1024, 64]⟩ .f32) (hred : Shape.Reduces ⟨2, ![1024, 64]⟩ [1] ⟨1, ![1024]⟩)
    (hφ : FKind.Formats .f32) (hacc : (0x00000000#32 : BitVec 32) = FKind.add.neutral .f32 hφ)
    (hsc : (⟨1, ![1024]⟩ : Shape).ShapeCasts ⟨2, ![1024, 1]⟩) (hbc : (⟨2, ![1024, 1]⟩ : Shape).Broadcasts ⟨2, ![1024, 2048]⟩)
    (p : Fin 1024) (h : Fin 2048) :
    broadcastTo ⟨2, ![1024, 2048]⟩ (shapeCast ⟨2, ![1024, 1]⟩ (multiReduction .add [1] ⟨1, ![1024]⟩ (mulf x x) 0x00000000#32 hred hφ hacc) hsc) hbc (ix2 p h)
      = rowSq x p := by
  rw [Cert.ColumnBroadcast.broadcastTo_a1_ab_apply, Cert.ColumnCast.shapeCast_a_a1_apply]
  refine (Ideal.multiReduction_add_single (mulf x x) 0x00000000#32 hred hφ hacc (ix1 p)).trans ?_
  unfold rowSq
  refine Finset.sum_congr rfl fun d _ => ?_
  have e : hred.lift (ix1 p) d = ix2 p d := funext fun a => Fin.ext (by match a with | ⟨0, _⟩ => rfl | ⟨1, _⟩ => rfl)
  rw [e]
  rfl

/-- A `[1, 2048]` row (cast to its own shape) spread over the 1024 rows reads, at `(p, h)`, the row's entry `h`. -/
theorem row_stage {b : ℕ} (v : FVec Ideal ⟨2, ![1, b]⟩ .f32) (hsc : (⟨2, ![1, b]⟩ : Shape).ShapeCasts ⟨2, ![1, b]⟩)
    (hbc : (⟨2, ![1, b]⟩ : Shape).Broadcasts ⟨2, ![1024, b]⟩) (p : Fin 1024) (h : Fin b) :
    broadcastTo ⟨2, ![1024, b]⟩ (shapeCast ⟨2, ![1, b]⟩ v hsc) hbc (ix2 p h) = v (ix2 (0 : Fin 1) h) := by
  rw [shapeCast_self, broadcastTo_1b_ab_apply]

/-- The block times the transposed centres, both rounded to bf16 first, into a zero accumulator: `⟨x_p, c_h⟩` at `(p, h)`. -/
theorem cross_stage (x : FVec Ideal ⟨2, ![1024, 64]⟩ .f32) (c : FVec Ideal ⟨2, ![2048, 64]⟩ .f32)
    (hb : FTy.bits .bf16 < FTy.bits .f32) (htr : (⟨2, ![2048, 64]⟩ : Shape).Transposes [1, 0] ⟨2, ![64, 2048]⟩)
    (p : Fin 1024) (h : Fin 2048) :
    matmul (DotDims.plain 1024 64 2048) none (truncf .bf16 x hb) (transpose ⟨2, ![64, 2048]⟩ [1, 0] (truncf .bf16 c hb) htr)
        (constant ⟨2, ![1024, 2048]⟩ .f32 0x00000000#32) (ix2 p h)
      = cross x c p h := by
  refine (Cert.LibPlainDot.plain_matmul_apply none _ _ (ix2 p h)).trans ?_
  unfold cross
  refine Finset.sum_congr rfl fun d _ => ?_
  rw [transpose_ix2_apply]
  rfl

/-- The responses times the transposed `W`, both rounded to bf16 first, into a zero accumulator: at `(p, j)` the sum over
    the centres of the response times `W (j, h)`. -/
theorem head_stage (K : FVec Ideal ⟨2, ![1024, 2048]⟩ .f32) (W : FVec Ideal ⟨2, ![2, 2048]⟩ .f32)
    (hb : FTy.bits .bf16 < FTy.bits .f32) (htr : (⟨2, ![2, 2048]⟩ : Shape).Transposes [1, 0] ⟨2, ![2048, 2]⟩)
    (p : Fin 1024) (j : Fin 2) :
    matmul (DotDims.plain 1024 2048 2) none (truncf .bf16 K hb) (transpose ⟨2, ![2048, 2]⟩ [1, 0] (truncf .bf16 W hb) htr)
        (constant ⟨2, ![1024, 2]⟩ .f32 0x00000000#32) (ix2 p j)
      = ∑ h : Fin 2048, K (ix2 p h) * W (ix2 j h) := by
  refine (Cert.LibPlainDot.plain_matmul_apply none _ _ (ix2 p j)).trans ?_
  refine Finset.sum_congr rfl fun h _ => ?_
  rw [transpose_ix2_apply]
  rfl

/-- The pointwise part between the two products: from the four `[1024, 2048]` arrays (row norms, centre norms, cross
    terms, squared widths) to the response, at one index. `0 − s = −s` on the extended reals. -/
theorem kern_stage (X C M Gm : FVec Ideal ⟨2, ![1024, 2048]⟩ .f32) (i : (⟨2, ![1024, 2048]⟩ : Shape).Idx) :
    exp (F := Ideal) (mulf (subf (broadcast ⟨2, ![1024, 2048]⟩ (Scalar.ofBits (F := Ideal) .f32 0x00000000#32))
        (maximumf (subf (addf X C) (mulf (broadcast ⟨2, ![1024, 2048]⟩ (Scalar.ofBits (F := Ideal) .f32 0x40000000#32)) M))
          (broadcast ⟨2, ![1024, 2048]⟩ (Scalar.ofBits (F := Ideal) .f32 0x00000000#32)))) Gm) i
      = Ideal.exp (-(max ((X i + C i) - Ideal.ofBits .f32 0x40000000#32 * M i) (Ideal.ofBits .f32 0x00000000#32)) * Gm i) := by
  show Ideal.exp ((Ideal.ofBits .f32 0x00000000#32 - max ((X i + C i) - Ideal.ofBits .f32 0x40000000#32 * M i) (Ideal.ofBits .f32 0x00000000#32)) * Gm i) = _
  rw [Ideal.ofBits_zero_f32, zero_sub]

/-- THE BODY'S RESULT at `(p, j)`: the head formula on the loaded block, with the centres' squared norms, the squared
    widths and the bias read off their one-row arrays. -/
theorem payload_apply (x : FVec Ideal ⟨2, ![1024, 64]⟩ .f32) (c : FVec Ideal ⟨2, ![2048, 64]⟩ .f32)
    (csq g2 : FVec Ideal ⟨2, ![1, 2048]⟩ .f32) (W : FVec Ideal ⟨2, ![2, 2048]⟩ .f32) (bias : FVec Ideal ⟨2, ![1, 2]⟩ .f32)
    (p : Fin 1024) (j : Fin 2) :
    k0_pay1 (F := Ideal) x c csq g2 W bias (ix2 p j)
      = head x c (fun h => csq (ix2 (0 : Fin 1) h)) (fun h => g2 (ix2 (0 : Fin 1) h)) W (fun j => bias (ix2 (0 : Fin 1) j)) p j := by
  unfold k0_pay1
  dsimp only
  rw [addf_apply]
  refine congrArg₂ (· + ·) ?_ (row_stage bias _ _ p j)
  refine (head_stage _ W _ _ p j).trans ?_
  refine Finset.sum_congr rfl fun h _ => congrArg (· * W (ix2 j h)) ?_
  refine (kern_stage _ _ _ _ (ix2 p h)).trans ?_
  unfold kern sqDist
  refine congrArg₂ (fun a g : EReal => Ideal.exp (-(max a (Ideal.ofBits .f32 0x00000000#32)) * g)) ?_ (row_stage g2 _ _ p h)
  refine congrArg₂ (fun s m : EReal => s - Ideal.ofBits .f32 0x40000000#32 * m) ?_ (cross_stage x c _ _ p h)
  exact congrArg₂ (fun a b : EReal => a + b) (rowSq_stage x _ _ _ _ _ p h) (row_stage csq _ _ p h)

end Cert.Rbf.Payload

end
-- ==== Proof.RbfBlock.lean ====
/-
  One block of the result is a block of the specification's function.

  Let the body's six loads be: rows `1024·t … 1024·t + 1023` of `X`; all of the centres and of `W`; and three one-row
  arrays holding the centres' squared norms, the squared widths and the bias. Then the body's result at `(p, j)` is the
  specification's value at `(1024·t + p, j)`: the head formula reads only row `p` of the block, which is row
  `1024·t + p` of `X`.
-/
import proofs.«149068_j55911884259445_1_alg».proof.Proof.RbfPayload

noncomputable section

namespace Cert.Rbf.Payload

open Idealize.ShloMosaic Idealize.ShloMosaic.ValueIdx Cert.KernelIdeal Cert.KernelIdeal.Gen

theorem block_value (x : FVec Ideal ⟨2, ![1024, 64]⟩ .f32) (cblk : FVec Ideal ⟨2, ![2048, 64]⟩ .f32)
    (csq g2 : FVec Ideal ⟨2, ![1, 2048]⟩ .f32) (Wblk : FVec Ideal ⟨2, ![2, 2048]⟩ .f32) (bias : FVec Ideal ⟨2, ![1, 2]⟩ .f32)
    (X : FVec Ideal ⟨2, ![32768, 64]⟩ .f32) (C : FVec Ideal ⟨2, ![2048, 64]⟩ .f32) (g : FVec Ideal ⟨1, ![2048]⟩ .f32)
    (W : FVec Ideal ⟨2, ![2, 2048]⟩ .f32) (b : FVec Ideal ⟨1, ![2]⟩ .f32)
    (y : (⟨2, ![1024, 2]⟩ : Shape).Idx) (i : (⟨2, ![32768, 2]⟩ : Shape).Idx) (tv : Nat)
    (hi0 : (i 0).val = tv * 1024 + (y 0).val) (hi1 : (i 1).val = (y 1).val)
    (hx : ∀ (p : Fin 1024) (d : Fin 64) (n : Fin 32768), n.val = tv * 1024 + p.val → x (ix2 p d) = X (ix2 n d))
    (hc : ∀ (h : Fin 2048) (d : Fin 64), cblk (ix2 h d) = C (ix2 h d))
    (hcsq : ∀ h : Fin 2048, csq (ix2 (0 : Fin 1) h) = centerSq C h)
    (hg2 : ∀ h : Fin 2048, g2 (ix2 (0 : Fin 1) h) = g (ix1 h) * g (ix1 h))
    (hW : ∀ (j : Fin 2) (h : Fin 2048), Wblk (ix2 j h) = W (ix2 j h))
    (hb : ∀ j : Fin 2, bias (ix2 (0 : Fin 1) j) = b (ix1 j)) :
    k0_pay1 (F := Ideal) x cblk csq g2 Wblk bias y = G X C g W b i := by
  obtain rfl : cblk = C := funext fun k => by rw [eq_ix2 k]; exact hc _ _
  obtain rfl : Wblk = W := funext fun k => by rw [eq_ix2 k]; exact hW _ _
  obtain ⟨p, j, rfl⟩ : ∃ (p : Fin 1024) (j : Fin 2), y = ix2 p j := ⟨y 0, y 1, eq_ix2 y⟩
  obtain ⟨n, j', rfl⟩ : ∃ (n : Fin 32768) (j' : Fin 2), i = ix2 n j' := ⟨i 0, i 1, eq_ix2 i⟩
  obtain rfl : j' = j := Fin.ext hi1
  rw [payload_apply, G_apply]
  refine (head_congr_params x cblk _ _ _ _ Wblk _ _ hcsq hg2 hb p j').trans ?_
  exact head_congr_row x X cblk _ _ Wblk _ p n (fun d => hx p d n hi0) j'

end Cert.Rbf.Payload

end
-- ==== Proof.RbfKernelValue.lean ====
/-
  The kernel's result array is the specification's function of the arguments.

  The grid has 32 points; point `t` stages rows `1024·t … 1024·t + 1023` of `x` and writes back the same rows of the
  result, while the other five windows are single blocks holding their whole arrays at every point. Three of those
  arrays are written by host operations before the launch: the centres' squared norms (a sum over the feature axis,
  reshaped to one row), the squared widths and the bias (each reshaped to one row). So at every point the body's loads
  are as the per-block statement asks, each point writes its block of the specification's function, and the 32 blocks
  tile the `[32768, 2]` result.
-/
import proofs.«149068_j55911884259445_1_alg».proof.Proof.Gen.KernelIdeal.Value
import proofs.«149068_j55911884259445_1_alg».proof.Proof.RbfBlock
import Idealize.ShloMosaic.Lib.StableHlo.Run
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx Idealize.ShloMosaic.StableHlo Cert.Rbf
open Idealize.ShloMosaic.Pipeline (Dat)

/-! ## The three one-row arrays the host writes, read at an entry -/

/-- The feature-axis sum of the centres' squares, from the float zero, reshaped to one row: `‖c_h‖²` at `(0, h)`. -/
theorem centerSq_host (C : FVec Ideal ⟨2, ![2048, 64]⟩ .f32) (hr : (⟨2, ![2048, 64]⟩ : Shape).ReducesTo [1] ⟨1, ![2048]⟩)
    (h0 : 0 < (⟨0, ![]⟩ : Shape).numel) (hsc : (⟨1, ![2048]⟩ : Shape).ShapeCasts ⟨2, ![1, 2048]⟩) (u : Fin 1) (h : Fin 2048) :
    shapeCast ⟨2, ![1, 2048]⟩ (Host.reduceAdd (F := Ideal) (mulf C C) (constant (F := Ideal) ⟨0, ![]⟩ .f32 0x00000000#32) hr h0) hsc (ix2 u h)
      = centerSq C h := by
  rw [shapeCast_a_1a_apply]
  simp only [Host.reduceAdd, Ideal.hostReduceAdd_def]
  rw [Ideal.hostReduceAdd_single hr (by decide)]
  show Ideal.ofBits .f32 0x00000000#32 + _ = _
  rw [Ideal.ofBits_zero_f32, zero_add]
  unfold centerSq
  refine Finset.sum_congr rfl fun k _ => ?_
  exact congrArg (mulf C C) (funext fun a => Fin.ext (by match a with | ⟨0, _⟩ => rfl | ⟨1, _⟩ => rfl))

/-- The widths squared, reshaped to one row: `γ_h²` at `(0, h)`. -/
theorem widthSq_host (g : FVec Ideal ⟨1, ![2048]⟩ .f32) (hsc : (⟨1, ![2048]⟩ : Shape).ShapeCasts ⟨2, ![1, 2048]⟩) (u : Fin 1) (h : Fin 2048) :
    shapeCast ⟨2, ![1, 2048]⟩ (mulf g g) hsc (ix2 u h) = g (ix1 h) * g (ix1 h) := by
  rw [shapeCast_a_1a_apply]
  rfl

/-- The bias reshaped to one row: `b_j` at `(0, j)`. -/
theorem bias_host (b : FVec Ideal ⟨1, ![2]⟩ .f32) (hsc : (⟨1, ![2]⟩ : Shape).ShapeCasts ⟨2, ![1, 2]⟩) (u : Fin 1) (j : Fin 2) :
    shapeCast ⟨2, ![1, 2]⟩ b hsc (ix2 u j) = b (ix1 j) := by
  rw [shapeCast_a_1a_apply]

variable (m : (ℓ : Loc nD τ sig) → Buf (Elt Ideal) ℓ) (ρ : Dev nD → PrngReg)

/-! ## The arrays as the launch finds them -/

/-- Window 2's array: the centres' squared norms as one row. -/
theorem V_main_v2 (c : Dev nD) : (V m c main_v2 : S1x2048.Idx → EReal)
    = shapeCast S1x2048 (Host.reduceAdd (F := Ideal) (mulf (m ((c : Thread nD τ).loc main_arg1)) (m ((c : Thread nD τ).loc main_arg1)))
        (constant (F := Ideal) S_ .f32 0x00000000#32) reducesTo_S2048x64_S2048_d1 h_S_) shapeCasts_S2048_S1x2048 := by
  dsimp only [Gen.V, Gen.hostOps0]; after_results; rfl

/-- Window 3's array: the squared widths as one row. -/
theorem V_main_v4 (c : Dev nD) : (V m c main_v4 : S1x2048.Idx → EReal)
    = shapeCast S1x2048 (mulf (F := Ideal) (s := S2048) (φ := .f32) (m ((c : Thread nD τ).loc main_arg2)) (m ((c : Thread nD τ).loc main_arg2))) shapeCasts_S2048_S1x2048 := by
  dsimp only [Gen.V, Gen.hostOps0]; after_results; rfl

/-- Window 5's array: the bias as one row. -/
theorem V_main_v5 (c : Dev nD) : (V m c main_v5 : S1x2.Idx → EReal)
    = shapeCast S1x2 (m ((c : Thread nD τ).loc main_arg4)) shapeCasts_S2_S1x2 := by
  dsimp only [Gen.V, Gen.hostOps0]; after_results; rfl

/-! ## The index maps, and each window's block -/

theorem hz : (![0, 0] : Fin 2 → Nat) = fun _ => 0 := funext fun a => by fin_cases a <;> rfl

/-- The printed index maps over the 32 points: the row block of `x` and of the result move with the point, every other
    window stays at block `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Window 0's block at point `t` is rows `1024·t … 1024·t + 1023` of `x`. -/
theorem iblk0_apply (c : Dev nD) (t : Fin cfg0.N) (p : Fin 1024) (d : Fin 64) (n : Fin 32768) (hn : n.val = t.val * 1024 + p.val) :
    (iblk m c 0 t : S1024x64.Idx → EReal) (ix2 p d) = (m ((c : Thread nD τ).loc main_arg0) : S32768x64.Idx → EReal) (ix2 n d) := by
  obtain ⟨e0, e1, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 1024 + 1 * p.val = n.val; omega
  | ⟨1, _⟩ => show win0_0.index t (1 : Fin 2) * 64 + 1 * d.val = d.val; omega

/-- Window 1's block is all the centres. -/
theorem iblk1_apply (c : Dev nD) (t : Fin cfg0.N) (h : Fin 2048) (d : Fin 64) :
    (iblk m c 1 t : S2048x64.Idx → EReal) (ix2 h d) = (m ((c : Thread nD τ).loc main_arg1) : S2048x64.Idx → EReal) (ix2 h d) := by
  obtain ⟨-, -, e0, e1, -⟩ := idx_facts t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 2048 + 1 * h.val = h.val; omega
  | ⟨1, _⟩ => show win0_1.index t (1 : Fin 2) * 64 + 1 * d.val = d.val; omega

/-- Window 2's block holds the centres' squared norms. -/
theorem iblk2_apply (c : Dev nD) (t : Fin cfg0.N) (h : Fin 2048) :
    (iblk m c 2 t : S1x2048.Idx → EReal) (ix2 (0 : Fin 1) h) = centerSq (m ((c : Thread nD τ).loc main_arg1)) h := by
  obtain ⟨-, -, -, -, e0, e1, -⟩ := idx_facts t
  unfold iblk
  rw [View.read_apply]
  show (V m c main_v2 : S1x2048.Idx → EReal) _ = _
  rw [V_main_v2]
  have e : ((cfg0.win 2).blk t).view.emb (ix2 (0 : Fin 1) h) = ix2 (0 : Fin 1) h := funext fun a => Fin.ext (by
    match a with
    | ⟨0, _⟩ => show win0_2.index t (0 : Fin 2) * 1 + 1 * 0 = 0; omega
    | ⟨1, _⟩ => show win0_2.index t (1 : Fin 2) * 2048 + 1 * h.val = h.val; omega)
  rw [e]
  exact centerSq_host _ _ _ _ 0 h

/-- Window 3's block holds the squared widths. -/
theorem iblk3_apply (c : Dev nD) (t : Fin cfg0.N) (h : Fin 2048) :
    (iblk m c 3 t : S1x2048.Idx → EReal) (ix2 (0 : Fin 1) h)
      = (fun g : FVec Ideal S2048 .f32 => g (ix1 h) * g (ix1 h)) (m ((c : Thread nD τ).loc main_arg2)) := by
  obtain ⟨-, -, -, -, -, -, e0, e1, -⟩ := idx_facts t
  unfold iblk
  rw [View.read_apply]
  show (V m c main_v4 : S1x2048.Idx → EReal) _ = _
  rw [V_main_v4]
  have e : ((cfg0.win 3).blk t).view.emb (ix2 (0 : Fin 1) h) = ix2 (0 : Fin 1) h := funext fun a => Fin.ext (by
    match a with
    | ⟨0, _⟩ => show win0_3.index t (0 : Fin 2) * 1 + 1 * 0 = 0; omega
    | ⟨1, _⟩ => show win0_3.index t (1 : Fin 2) * 2048 + 1 * h.val = h.val; omega)
  rw [e]
  exact widthSq_host _ _ 0 h

/-- Window 4's block is all of `W`. -/
theorem iblk4_apply (c : Dev nD) (t : Fin cfg0.N) (j : Fin 2) (h : Fin 2048) :
    (iblk m c 4 t : S2x2048.Idx → EReal) (ix2 j h) = (m ((c : Thread nD τ).loc main_arg3) : S2x2048.Idx → EReal) (ix2 j h) := by
  obtain ⟨-, -, -, -, -, -, -, -, e0, e1, -⟩ := idx_facts t
  unfold iblk
  rw [View.read_apply]
  show V m c main_arg3 _ = _
  rw [V_main_arg3]
  refine congrArg (m ((c : Thread nD τ).loc main_arg3)) (funext fun a => Fin.ext ?_)
  match a with
  | ⟨0, _⟩ => show win0_4.index t (0 : Fin 2) * 2 + 1 * j.val = j.val; omega
  | ⟨1, _⟩ => show win0_4.index t (1 : Fin 2) * 2048 + 1 * h.val = h.val; omega

/-- Window 5's block holds the bias. -/
theorem iblk5_apply (c : Dev nD) (t : Fin cfg0.N) (j : Fin 2) :
    (iblk m c 5 t : S1x2.Idx → EReal) (ix2 (0 : Fin 1) j) = (m ((c : Thread nD τ).loc main_arg4) : S2.Idx → EReal) (ix1 j) := by
  obtain ⟨-, -, -, -, -, -, -, -, -, -, e0, e1, -⟩ := idx_facts t
  unfold iblk
  rw [View.read_apply]
  show (V m c main_v5 : S1x2.Idx → EReal) _ = _
  rw [V_main_v5]
  have e : ((cfg0.win 5).blk t).view.emb (ix2 (0 : Fin 1) j) = ix2 (0 : Fin 1) j := funext fun a => Fin.ext (by
    match a with
    | ⟨0, _⟩ => show win0_5.index t (0 : Fin 2) * 1 + 1 * 0 = 0; omega
    | ⟨1, _⟩ => show win0_5.index t (1 : Fin 2) * 2 + 1 * j.val = j.val; omega)
  rw [e]
  exact bias_host _ _ 0 j

/-! ## What a point writes back, the cover, the array -/

/-- The result as the specification's function of the five arguments as launched. -/
abbrev result (c : Dev nD) : S32768x2.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4))

/-- WHAT POINT `t` WRITES BACK is block `t` of the result. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero hz]
  simp only [View.ld_unit_zero (S := S1024x64) hz, View.ld_unit_zero (S := S2048x64) hz, View.ld_unit_zero (S := S1x2048) hz,
    View.ld_unit_zero (S := S2x2048) hz, View.ld_unit_zero (S := S1x2) hz]
  obtain ⟨-, -, -, -, -, -, -, -, -, -, -, -, e0, e1⟩ := idx_facts t
  funext y
  show k0_pay1 (F := Ideal) (iblk m c 0 t) (iblk m c 1 t) (iblk m c 2 t) (iblk m c 3 t) (iblk m c 4 t) (iblk m c 5 t) y
    = result m c (((cfg0.win 6).blk t).view.emb y)
  refine Cert.Rbf.Payload.block_value _ _ _ _ _ _ _ _ _ _ _ y _ t.val ?_ ?_ ?_ ?_ ?_ ?_ ?_ ?_
  · show win0_6.index t (0 : Fin 2) * 1024 + 1 * (y 0).val = t.val * 1024 + (y 0).val; omega
  · show win0_6.index t (1 : Fin 2) * 2 + 1 * (y 1).val = (y 1).val; omega
  · intro p d n hn; exact iblk0_apply m c t p d n hn
  · intro h d; exact iblk1_apply m c t h d
  · intro h; exact iblk2_apply m c t h
  · intro h; exact iblk3_apply m c t h
  · intro j h; exact iblk4_apply m c t j h
  · intro j; exact iblk5_apply m c t j

/-- An index of the result is in point `t`'s block iff each coordinate is in the block's range on its axis. -/
theorem mem_blk (t : Fin cfg0.N) (i : S32768x2.Idx) :
    i ∈ ((cfg0.win 6).blk t).view.set ↔ ∀ a : Fin 2, win0_6.index t a * S1024x2.size a ≤ (i a).val ∧ (i a).val < win0_6.index t a * S1024x2.size a + S1024x2.size a := by
  show i ∈ ((View.whole main_v6).slice (win0_6.rect t)).set ↔ _
  rw [View.set_slice_whole, Rect.mem_set_unit]
  exact Iff.rfl

/-- Row `r` of the result is in the block of point `r / 1024`: the 32 blocks tile the array. -/
theorem cover (i : S32768x2.Idx) : ∃ t : Fin cfg0.N, (cfg0.win 6).flush t = true ∧ i ∈ ((cfg0.win 6).blk t).view.set := by
  have hi0 : (i 0).val < 32768 := (i 0).isLt
  have hi1 : (i 1).val < 2 := (i 1).isLt
  have hN : grid0.N = 32 := N_0
  obtain ⟨t, ht⟩ : ∃ t : Fin cfg0.N, t.val = (i 0).val / 1024 := ⟨⟨(i 0).val / 1024, by show _ < grid0.N; omega⟩, rfl⟩
  obtain ⟨-, -, -, -, -, -, -, -, -, -, -, -, e0, e1⟩ := idx_facts t
  refine ⟨t, flush0_6 t, ?_⟩
  rw [mem_blk]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 2 ≤ (i 1).val ∧ (i 1).val < win0_6.index t (1 : Fin 2) * 2 + 2; omega

/-- THE RESULT ARRAY after the run is the specification's function of the arguments. -/
theorem final (c : Dev nD) : (dats m 0 c).arrAt 6 cfg0.N = result m c :=
  (dats m 0 c).arrAt_eq_of_cover 6 (result m c) (fun t _ => flushed_eq m c t) cover

/-- The run, read: the result at the specification's function of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Hand

end
-- ==== Proof.RbfReference.lean ====
/-
  The reference computes the specification's function.

  Read one operation at a time at an index `(n, h)` of the `[32768, 2048]` intermediate: the two keepdims sums are
  `‖x_n‖²` and `‖c_h‖²` (each starts from the float zero, which is the extended real `0`), the first product contracts
  the feature axis of both operands, the negation is `−·`, and the last product contracts the centres against the
  transposed `W`. Put together at `(n, j)` this is the head formula on the whole array.
-/
import proofs.«149068_j55911884259445_1_alg».proof.Proof.Gen.ReferenceIdeal.Read
import proofs.«149068_j55911884259445_1_alg».proof.Proof.RbfSpec

noncomputable section

namespace Cert.Rbf.Reference

open Idealize.ShloMosaic Idealize.ShloMosaic.ValueIdx Cert.ReferenceIdeal Cert.ReferenceIdeal.Read

/-- The row norms spread over the centres: `‖x_n‖²` at `(n, h)`. -/
theorem rowSq_ref (x0 : FVec Ideal ⟨2, ![32768, 64]⟩ .f32) (n : Fin 32768) (h : Fin 2048) :
    val_main_v7 (F := Ideal) x0 (ix2 n h) = rowSq x0 n := by
  have e7 : idx_main_v7 (ix2 n h) = ix2 n (0 : Fin 1) :=
    funext fun a => Fin.ext (by match a with | ⟨0, _⟩ => rfl | ⟨1, _⟩ => rfl)
  have e2 : idx_main_v2 (ix2 n (0 : Fin 1)) = ix1 n := funext fun a => Fin.ext (by match a with | ⟨0, _⟩ => rfl)
  rw [val_main_v7_apply, e7, val_main_v2_apply, e2, val_main_v1_apply]
  show Ideal.ofBits .f32 0x00000000#32 + _ = _
  rw [Ideal.ofBits_zero_f32, zero_add]
  unfold rowSq
  refine Finset.sum_congr rfl fun k _ => ?_
  have e1 : idx_main_v1 (ix1 n) k = ix2 n k :=
    funext fun a => Fin.ext (by match a with | ⟨0, _⟩ => rfl | ⟨1, _⟩ => rfl)
  rw [e1]
  rfl

/-- The centre norms spread over the rows: `‖c_h‖²` at `(n, h)`. -/
theorem centerSq_ref (x1 : FVec Ideal ⟨2, ![2048, 64]⟩ .f32) (n : Fin 32768) (h : Fin 2048) :
    val_main_v8 (F := Ideal) x1 (ix2 n h) = centerSq x1 h := by
  have e8 : idx_main_v8 (ix2 n h) = ix2 (0 : Fin 1) h :=
    funext fun a => Fin.ext (by match a with | ⟨0, _⟩ => rfl | ⟨1, _⟩ => rfl)
  have e6 : idx_main_v6 (ix2 (0 : Fin 1) h) = ix1 h := funext fun a => Fin.ext (by match a with | ⟨0, _⟩ => rfl)
  rw [val_main_v8_apply, e8, val_main_v6_apply, e6, val_main_v4_apply]
  show Ideal.ofBits .f32 0x00000000#32 + _ = _
  rw [Ideal.ofBits_zero_f32, zero_add]
  unfold centerSq
  refine Finset.sum_congr rfl fun k _ => ?_
  have e4 : idx_main_v4 (ix1 h) k = ix2 h k :=
    funext fun a => Fin.ext (by match a with | ⟨0, _⟩ => rfl | ⟨1, _⟩ => rfl)
  rw [e4]
  rfl

/-- The first product: `⟨x_n, c_h⟩` at `(n, h)`. -/
theorem cross_ref (x0 : FVec Ideal ⟨2, ![32768, 64]⟩ .f32) (x1 : FVec Ideal ⟨2, ![2048, 64]⟩ .f32) (n : Fin 32768) (h : Fin 2048) :
    val_main_v5 (F := Ideal) x0 x1 (ix2 n h) = cross x0 x1 n h := by
  rw [val_main_v5_apply]
  unfold cross
  refine Finset.sum_congr rfl fun k _ => ?_
  have el : lidx_main_v5 (ix2 n h) k = ix2 n k :=
    funext fun a => Fin.ext (by match a with | ⟨0, _⟩ => rfl | ⟨1, _⟩ => rfl)
  have er : ridx_main_v5 (ix2 n h) k = ix2 h k :=
    funext fun a => Fin.ext (by match a with | ⟨0, _⟩ => rfl | ⟨1, _⟩ => rfl)
  rw [el, er]

/-- The squared widths spread over the rows: `γ_h²` at `(n, h)`. -/
theorem width_ref (x2 : FVec Ideal ⟨1, ![2048]⟩ .f32) (n : Fin 32768) (h : Fin 2048) :
    val_main_v18 (F := Ideal) x2 (ix2 n h) = x2 (ix1 h) * x2 (ix1 h) := by
  have e18 : idx_main_v18 (ix2 n h) = ix2 (0 : Fin 1) h :=
    funext fun a => Fin.ext (by match a with | ⟨0, _⟩ => rfl | ⟨1, _⟩ => rfl)
  have e17 : idx_main_v17 (ix2 (0 : Fin 1) h) = ix1 h := funext fun a => Fin.ext (by match a with | ⟨0, _⟩ => rfl)
  rw [val_main_v18_apply, e18, val_main_v17_apply, e17, val_main_v16_apply]
  rfl

/-- The response at `(n, h)`. -/
theorem kern_ref (x0 : FVec Ideal ⟨2, ![32768, 64]⟩ .f32) (x1 : FVec Ideal ⟨2, ![2048, 64]⟩ .f32) (x2 : FVec Ideal ⟨1, ![2048]⟩ .f32)
    (n : Fin 32768) (h : Fin 2048) :
    val_main_v20 (F := Ideal) x0 x1 x2 (ix2 n h) = kern x0 x1 (centerSq x1) (fun h => x2 (ix1 h) * x2 (ix1 h)) n h := by
  rw [val_main_v20_apply, val_main_v19_apply, val_main_v15_apply, val_main_v14_apply, val_main_v12_apply, val_main_v9_apply,
    val_main_v11_apply, val_main_v13_apply, val_main_v10_apply, rowSq_ref, centerSq_ref, cross_ref, width_ref]
  rfl

/-- The bias spread over the rows: `b_j` at `(n, j)`. -/
theorem bias_ref (x4 : FVec Ideal ⟨1, ![2]⟩ .f32) (n : Fin 32768) (j : Fin 2) :
    val_main_v24 (F := Ideal) x4 (ix2 n j) = x4 (ix1 j) := by
  have e24 : idx_main_v24 (ix2 n j) = ix2 (0 : Fin 1) j :=
    funext fun a => Fin.ext (by match a with | ⟨0, _⟩ => rfl | ⟨1, _⟩ => rfl)
  have e23 : idx_main_v23 (ix2 (0 : Fin 1) j) = ix1 j := funext fun a => Fin.ext (by match a with | ⟨0, _⟩ => rfl)
  rw [val_main_v24_apply, e24, val_main_v23_apply, e23]

/-- THE REFERENCE'S RESULT is the specification's function of the five arguments. -/
theorem reference_eq (x0 : FVec Ideal ⟨2, ![32768, 64]⟩ .f32) (x1 : FVec Ideal ⟨2, ![2048, 64]⟩ .f32) (x2 : FVec Ideal ⟨1, ![2048]⟩ .f32)
    (x3 : FVec Ideal ⟨2, ![2, 2048]⟩ .f32) (x4 : FVec Ideal ⟨1, ![2]⟩ .f32) :
    val_main_v25 (F := Ideal) x0 x1 x2 x3 x4 = G x0 x1 x2 x3 x4 := by
  funext i
  obtain ⟨n, j, rfl⟩ : ∃ (n : Fin 32768) (j : Fin 2), i = ix2 n j := ⟨i 0, i 1, eq_ix2 i⟩
  rw [G_apply, val_main_v25_apply, val_main_v22_apply, bias_ref]
  unfold head
  refine congrArg₂ (· + ·) (Finset.sum_congr rfl fun k _ => ?_) rfl
  have el : lidx_main_v22 (ix2 n j) k = ix2 n k :=
    funext fun a => Fin.ext (by match a with | ⟨0, _⟩ => rfl | ⟨1, _⟩ => rfl)
  have er : ridx_main_v22 (ix2 n j) k = ix2 k j :=
    funext fun a => Fin.ext (by match a with | ⟨0, _⟩ => rfl | ⟨1, _⟩ => rfl)
  have et : idx_main_v21 (ix2 k j) = ix2 j k :=
    funext fun a => Fin.ext (by match a with | ⟨0, _⟩ => rfl | ⟨1, _⟩ => rfl)
  rw [el, er, kern_ref, val_main_v21_apply, et]

end Cert.Rbf.Reference

end
-- ==== Proof.lean ====
/-
  A radial-basis-function layer with a linear head: for `x : [32768, 64]`, centres `c : [2048, 64]`, widths `γ : [2048]`,
  `W : [2, 2048]` and `b : [2]`,

      out[n, j] = Σ_h exp(−max(‖x_n‖² + ‖c_h‖² − 2·⟨x_n, c_h⟩, 0) · γ_h²) · W[j, h] + b[j].

  The kernel computes it 1024 rows at a time over a grid of 32 points, with the centres' squared norms, the squared widths
  and the bias prepared as one-row arrays by host operations before the launch; the reference computes it on whole arrays.
  Over the extended reals the two are the same function of the arguments, term for term: the roundings to bf16 ahead of
  the two matrix products are the identity, a product into a zero accumulator and a lane sum are plain finite sums, a sum
  that starts from the float zero starts from `0`, and `0 − s` is `−s`. No law that needs finite values is used, so the
  precondition is never opened.

  The frames of the two kernel programs and the reference's run are the generated ones; the ideal pass rewrote nothing,
  so there is nothing to preserve. Written by hand: the specification (Proof/RbfSpec.lean), the reference read against it
  (Proof/RbfReference.lean), the kernel body's result at an index (Proof/RbfPayload.lean, Proof/RbfBlock.lean), and the
  result array assembled from the 32 blocks (Proof/RbfKernelValue.lean).
-/
import proofs.«149068_j55911884259445_1_alg».proof.Defs
import proofs.«149068_j55911884259445_1_alg».proof.Proof.Gen.Kernel
import proofs.«149068_j55911884259445_1_alg».proof.Proof.Gen.Kernel.Skeleton
import proofs.«149068_j55911884259445_1_alg».proof.Proof.Gen.Kernel.Launch
import proofs.«149068_j55911884259445_1_alg».proof.Proof.Gen.Kernel.Points
import proofs.«149068_j55911884259445_1_alg».proof.Proof.Gen.Kernel.Frame
import proofs.«149068_j55911884259445_1_alg».proof.Proof.Gen.KernelIdeal
import proofs.«149068_j55911884259445_1_alg».proof.Proof.Gen.KernelIdeal.Skeleton
import proofs.«149068_j55911884259445_1_alg».proof.Proof.Gen.KernelIdeal.Launch
import proofs.«149068_j55911884259445_1_alg».proof.Proof.Gen.KernelIdeal.Points
import proofs.«149068_j55911884259445_1_alg».proof.Proof.Gen.KernelIdeal.Frame
import proofs.«149068_j55911884259445_1_alg».proof.Proof.Gen.ReferenceIdeal
import proofs.«149068_j55911884259445_1_alg».proof.Proof.Gen.Pre_finite_inputs
import proofs.«149068_j55911884259445_1_alg».proof.Proof.Gen.KernelIdeal.Value
import proofs.«149068_j55911884259445_1_alg».proof.Proof.Gen.ReferenceIdeal.Run
import proofs.«149068_j55911884259445_1_alg».proof.Proof.Gen.ReferenceIdeal.Read
import proofs.«149068_j55911884259445_1_alg».proof.Proof.RbfKernelValue
import proofs.«149068_j55911884259445_1_alg».proof.Proof.RbfReference
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: no rewrite to account for. -/
theorem preserves : Cert.preserves_Kernel_KernelIdeal := trivial

/-- From memories that agree on the five arguments, the kernel's result array and the reference's result both end at the
    specification's function of those arguments. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.Rbf.Reference.reference_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
